-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S64x2048x64 : Shape := ⟨3, ![64, 2048, 64]⟩
abbrev S1x2048x64 : Shape := ⟨3, ![1, 2048, 64]⟩
abbrev S1x512x64 : Shape := ⟨3, ![1, 512, 64]⟩
abbrev S512x64 : Shape := ⟨2, ![512, 64]⟩
abbrev S64x512 : Shape := ⟨2, ![64, 512]⟩
abbrev S512x512 : Shape := ⟨2, ![512, 512]⟩
abbrev S1x1024x64 : Shape := ⟨3, ![1, 1024, 64]⟩
abbrev S1024x64 : Shape := ⟨2, ![1024, 64]⟩
abbrev S64x1024 : Shape := ⟨2, ![64, 1024]⟩
abbrev S512x1024 : Shape := ⟨2, ![512, 1024]⟩
abbrev S1x1536x64 : Shape := ⟨3, ![1, 1536, 64]⟩
abbrev S1536x64 : Shape := ⟨2, ![1536, 64]⟩
abbrev S64x1536 : Shape := ⟨2, ![64, 1536]⟩
abbrev S512x1536 : Shape := ⟨2, ![512, 1536]⟩
abbrev S2048x64 : Shape := ⟨2, ![2048, 64]⟩
abbrev S64x2048 : Shape := ⟨2, ![64, 2048]⟩
abbrev S512x2048 : Shape := ⟨2, ![512, 2048]⟩

abbrev nBuf : Space → Nat
  | .hbm => 8
  | .vmem => 8
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S64x2048x64, .f32⟩
  | .hbm, ⟨4, _⟩ => ⟨S64x2048x64, .f32⟩
  | .hbm, ⟨5, _⟩ => ⟨S64x2048x64, .f32⟩
  | .hbm, ⟨6, _⟩ => ⟨S64x2048x64, .f32⟩
  | .hbm, ⟨7, _⟩ => ⟨S4x16x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x2048x64, .f32⟩
  | .local _ .vmem, ⟨7, _⟩ => ⟨S1x2048x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x16x2048x64_S64x2048x64 : S4x16x2048x64.ShapeCasts S64x2048x64
  inb_S1x2048x64_S1x512x64_0_0_0 : ∀ a, (![0, 0, 0] : Fin 3 → Nat) a + S1x512x64.size a ≤ S1x2048x64.size a
  h_S1x512x64 : 0 < S1x512x64.numel
  shapeCasts_S1x512x64_S512x64 : S1x512x64.ShapeCasts S512x64
  bitsLt_bf16_f32 : FTy.bits .bf16 < FTy.bits .f32
  transposes_S512x64_p1_0_S64x512 : S512x64.Transposes [1, 0] S64x512
  iota_S512x512_d0_w32 : S512x512.Iotas .tc 32 [0]
  iota_S512x512_d1_w32 : S512x512.Iotas .tc 32 [1]
  shapeCasts_S512x64_S1x512x64 : S512x64.ShapeCasts S1x512x64
  inb_S1x2048x64_S1x512x64_0_512_0 : ∀ a, (![0, 512, 0] : Fin 3 → Nat) a + S1x512x64.size a ≤ S1x2048x64.size a
  inb_S1x2048x64_S1x1024x64_0_0_0 : ∀ a, (![0, 0, 0] : Fin 3 → Nat) a + S1x1024x64.size a ≤ S1x2048x64.size a
  h_S1x1024x64 : 0 < S1x1024x64.numel
  shapeCasts_S1x1024x64_S1024x64 : S1x1024x64.ShapeCasts S1024x64
  transposes_S1024x64_p1_0_S64x1024 : S1024x64.Transposes [1, 0] S64x1024
  iota_S512x1024_d0_w32 : S512x1024.Iotas .tc 32 [0]
  iota_S512x1024_d1_w32 : S512x1024.Iotas .tc 32 [1]
  inb_S1x2048x64_S1x512x64_0_1024_0 : ∀ a, (![0, 1024, 0] : Fin 3 → Nat) a + S1x512x64.size a ≤ S1x2048x64.size a
  inb_S1x2048x64_S1x1536x64_0_0_0 : ∀ a, (![0, 0, 0] : Fin 3 → Nat) a + S1x1536x64.size a ≤ S1x2048x64.size a
  h_S1x1536x64 : 0 < S1x1536x64.numel
  shapeCasts_S1x1536x64_S1536x64 : S1x1536x64.ShapeCasts S1536x64
  transposes_S1536x64_p1_0_S64x1536 : S1536x64.Transposes [1, 0] S64x1536
  iota_S512x1536_d0_w32 : S512x1536.Iotas .tc 32 [0]
  iota_S512x1536_d1_w32 : S512x1536.Iotas .tc 32 [1]
  inb_S1x2048x64_S1x512x64_0_1536_0 : ∀ a, (![0, 1536, 0] : Fin 3 → Nat) a + S1x512x64.size a ≤ S1x2048x64.size a
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  iota_S512x2048_d0_w32 : S512x2048.Iotas .tc 32 [0]
  iota_S512x2048_d1_w32 : S512x2048.Iotas .tc 32 [1]
  shapeCasts_S64x2048x64_S4x16x2048x64 : S64x2048x64.ShapeCasts S4x16x2048x64
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  dot_S512x64_S64x1024_S512x1024_1_0_0_1_n_n_wf : DotDims.WF S512x64 S64x1024 S512x1024 [1] [0] [0] [1] [] []
  dot_S512x1024_S1024x64_S512x64_1_0_0_1_n_n_wf : DotDims.WF S512x1024 S1024x64 S512x64 [1] [0] [0] [1] [] []
  dot_S512x64_S64x1536_S512x1536_1_0_0_1_n_n_wf : DotDims.WF S512x64 S64x1536 S512x1536 [1] [0] [0] [1] [] []
  dot_S512x1536_S1536x64_S512x64_1_0_0_1_n_n_wf : DotDims.WF S512x1536 S1536x64 S512x64 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S64x2048x64.size a
  hwx0_0 : ∀ i : grid0.Coords, EltTy.bits .f32 = 32 ∨ (Rect.block (s := S64x2048x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x64.size a ≤ S64x2048x64.size a
  hwx0_3 : ∀ i : grid0.Coords, EltTy.bits .f32 = 32 ∨ (Rect.block (s := S64x2048x64) S1x2048x64.size (cc0_transform_3 i) (hinb0_3 i)).WholeWords (EltTy.packing .f32)

variable [Facts₀]

def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x64_S64x1536_S512x1536_1_0_0_1_n_n : DotDims S512x64 S64x1536 S512x1536 where
  lhsContracting := [1]
  rhsContracting := [0]
  lhsNonContracting := [0]
  rhsNonContracting := [1]
  lhsBatch := []
  rhsBatch := []
  wf := dot_S512x64_S64x1536_S512x1536_1_0_0_1_n_n_wf
def dot_S512x1536_S1536x64_S512x64_1_0_0_1_n_n : DotDims S512x1536 S1536x64 S512x64 where
  lhsContracting := [1]
  rhsContracting := [0]
  lhsNonContracting := [0]
  rhsNonContracting := [1]
  lhsBatch := []
  rhsBatch := []
  wf := dot_S512x1536_S1536x64_S512x64_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x16x2048x2048 : Shape := ⟨4, ![4, 16, 2048, 2048]⟩
abbrev S_ : Shape := ⟨0, ![]⟩
abbrev S2048x2048 : Shape := ⟨2, ![2048, 2048]⟩
abbrev S1x1x2048x2048 : Shape := ⟨4, ![1, 1, 2048, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x2048, .f32⟩
  | .hbm, ⟨4, _⟩ => ⟨S_, .f32⟩
  | .hbm, ⟨5, _⟩ => ⟨S2048x2048, .f32⟩
  | .hbm, ⟨6, _⟩ => ⟨S2048x2048, .i32⟩
  | .hbm, ⟨7, _⟩ => ⟨S_, .i32⟩
  | .hbm, ⟨8, _⟩ => ⟨S2048x2048, .i32⟩
  | .hbm, ⟨9, _⟩ => ⟨S2048x2048, .i32⟩
  | .hbm, ⟨10, _⟩ => ⟨S2048x2048, .i32⟩
  | .hbm, ⟨11, _⟩ => ⟨S2048x2048, .i1⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S1x1x2048x2048, .f32⟩
  | .hbm, ⟨16, _⟩ => ⟨S4x16x2048x2048, .f32⟩
  | .hbm, ⟨17, _⟩ => ⟨S4x16x2048x2048, .f32⟩
  | .hbm, ⟨18, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_cst : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S4x16x2048x2048_0_1_2_3 : S1x1x2048x2048.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.CausalSpec.lean ====
/-
  Causal linear attention, stated once.

  For one head with queries q, keys k and values v (rows indexed by time, 64 features each), row t of the result is
      out[t, e] = Σ_s  m(t, s) · v[s, e],     m(t, s) = (Σ_d q[t, d] · k[s, d])  if s ≤ t,  and 0 otherwise.
  Only rows s ≤ t contribute, so the sum may run over any range of rows that contains 0 … t: the rows past t add
  zeros (`row_window`). Both programs compute this row; they differ in how many rows they sum over (the kernel
  stops at the end of the query's 512-row block, the reference runs over all 2048) and in how the mask is applied
  (a select against a product with 0 or 1).

  The mask's condition is computed on signed 32-bit words: (a + b ≥ c) for small naturals a, b, c reads as the
  inequality of naturals (`sge_add_bit`, `select_sge`).
-/
import Idealize.ShloMosaic.PureOps.Ideal
import Idealize.ShloMosaic.Lib.ValueIdx
import Idealize.ShloMosaic.Lib.WordArith
import Idealize.ShloMosaic.Lib.Affine
import Idealize.ShloMosaic.Lib.FinSumWindow

noncomputable section

namespace Cert.Causal

open Idealize.ShloMosaic Idealize.ShloMosaic.ValueIdx Idealize.ShloMosaic.WordArith Idealize.ShloMosaic.FinSumWindow

/-! ## The mask's condition on 32-bit words -/

/-- The signed comparison `a + b ≥ c` of three small naturals written as 32-bit words holds exactly when
    `c ≤ a + b`: none of the three words, nor the sum, reaches the sign bit. -/
theorem sge_add_bit (a b c : ℕ) (hab : a + b < 2 ^ 31) (hc : c < 2 ^ 31) :
    IntOp.cmpi .sge (IntOp.addi (BitVec.ofNat 32 a) (BitVec.ofNat 32 b)) (BitVec.ofNat 32 c) = 1#1 ↔ c ≤ a + b := by
  rw [IntOp.cmpi_sge]
  have ha : (BitVec.ofNat 32 a).toInt = a := toInt_ofNat_small a (by omega)
  have hb : (BitVec.ofNat 32 b).toInt = b := toInt_ofNat_small b (by omega)
  have hc' : (BitVec.ofNat 32 c).toInt = c := toInt_ofNat_small c hc
  have hs : (IntOp.addi (BitVec.ofNat 32 a) (BitVec.ofNat 32 b)).toInt = (a : ℤ) + b := by
    show ((BitVec.ofNat 32 a) + (BitVec.ofNat 32 b)).toInt = _
    rw [toInt_add_of_bounds _ _ (by rw [ha, hb]; omega) (by rw [ha, hb]; omega), ha, hb]
  rw [hs, hc']
  omega

/-- A select on that comparison is the `if` on the inequality of naturals. -/
theorem select_sge {α : Type} (a b c : ℕ) (hab : a + b < 2 ^ 31) (hc : c < 2 ^ 31) (x y : α) :
    Scalar.select (IntOp.cmpi .sge (IntOp.addi (BitVec.ofNat 32 a) (BitVec.ofNat 32 b)) (BitVec.ofNat 32 c)) x y
      = if c ≤ a + b then x else y := by
  unfold Scalar.select
  exact if_congr (sge_add_bit a b c hab hc) rfl rfl

/-! ## One row of causal linear attention -/

/-- Row `t` of causal linear attention over `N` rows of keys and values: the sum over the rows `s` of the masked
    score of (t, s) times the value at `s`; the masked score is the dot product of the query row with key row
    `s` when `s ≤ t`, and zero otherwise. -/
def row (N : ℕ) (t : ℕ) (qr : Fin 64 → EReal) (kr : Fin N → Fin 64 → EReal) (vc : Fin N → EReal) : EReal :=
  ∑ s : Fin N, (if s.val ≤ t then ∑ d : Fin 64, qr d * kr s d else 0) * vc s

/-- Rows past `t` are masked to zero, so summing over `M` rows or only over the first `N` of them (`t < N ≤ M`)
    gives the same row. -/
theorem row_window {N M : ℕ} (hNM : N ≤ M) (t : ℕ) (ht : t < N) (qr : Fin 64 → EReal)
    (kr : Fin M → Fin 64 → EReal) (vc : Fin M → EReal) :
    row M t qr kr vc = row N t qr (fun s => kr ⟨s.val, by omega⟩) (fun s => vc ⟨s.val, by omega⟩) := by
  unfold row
  rw [sum_window 0 (by omega : 0 + N ≤ M) (fun s : Fin M => (if s.val ≤ t then ∑ d : Fin 64, qr d * kr s d else 0) * vc s)
    (fun P hP => by
      have hPt : ¬ P.val ≤ t := by omega
      show (if P.val ≤ t then ∑ d : Fin 64, qr d * kr P d else 0) * vc P = 0
      rw [if_neg hPt, zero_mul])]
  refine Finset.sum_congr rfl fun p _ => ?_
  simp only [Nat.zero_add]

/-! ## The whole result, over the two layouts the programs use -/

/-- The result with the 64 heads on one axis, [64, 2048, 64]. -/
def causal3 (q k v : (⟨3, ![64, 2048, 64]⟩ : Shape).Idx → EReal) (bh : Fin 64) (t : Fin 2048) (e : Fin 64) : EReal :=
  row 2048 t.val (fun d => q (ix3 bh t d)) (fun s d => k (ix3 bh s d)) (fun s => v (ix3 bh s e))

/-- The result with batch and head on two axes, [4, 16, 2048, 64]. -/
def causal4 (q k v : (⟨4, ![4, 16, 2048, 64]⟩ : Shape).Idx → EReal) (b : Fin 4) (h : Fin 16) (t : Fin 2048) (e : Fin 64) : EReal :=
  row 2048 t.val (fun d => q (ix4 b h t d)) (fun s d => k (ix4 b h s d)) (fun s => v (ix4 b h s e))

end Cert.Causal

end
-- ==== Proof.AttnBlock.lean ====
/-
  One 512-row block of causal linear attention, as the kernel's body computes it, read at an index.

  The body handles the query rows base … base+511 of one head. It loads those 512 query rows, and the first N key
  rows and N value rows (N = base + 512: everything up to the end of the query block), and computes
      S = Q · Kᵀ                      (512 × N, a matrix product into a zero accumulator)
      S' = where(base + r ≥ c, S, 0)  (the causal mask on the row number r and the column number c)
      O = S' · V                      (512 × 64, again into a zero accumulator)
  with the operands narrowed to bf16 on the way, which changes nothing over the extended reals. Entry (r, e) of O is
  therefore Σ_{c<N} (if c ≤ base + r then Σ_d Q[r,d]·K[c,d] else 0) · V[c,e]: row base + r of causal attention over
  the first N rows (`Cert.Causal.row`). The term is written once for every N and base (`attnBlock`); the kernel's
  four blocks are its instances at (N, base) = (512, 0), (1024, 512), (1536, 1024), (2048, 1536).
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«102459_j28656021799604_2_alg».proof.Proof.CausalSpec

noncomputable section

namespace Cert.Causal

open Idealize.ShloMosaic Idealize.ShloMosaic.ValueIdx

/-! ## A plain matrix product at an index -/

/-- An M×K by K×N matrix product into a zero accumulator reads, at (i, j), the sum over k of lhs[i,k]·rhs[k,j]:
    the contraction runs over the left operand's axis 1 and the right operand's axis 0. -/
theorem matmul_plain_apply {M K N : ℕ} {φ₁ φ₂ : FTy}
    (D : DotDims ⟨2, ![M, K]⟩ ⟨2, ![K, N]⟩ ⟨2, ![M, N]⟩)
    (wf : DotDims.WF ⟨2, ![M, K]⟩ ⟨2, ![K, N]⟩ ⟨2, ![M, N]⟩ [1] [0] [0] [1] [] [])
    (hD : D = ⟨[1], [0], [0], [1], [], [], wf⟩)
    (lhs : FVec Ideal ⟨2, ![M, K]⟩ φ₁) (rhs : FVec Ideal ⟨2, ![K, N]⟩ φ₂) (i : Fin M) (j : Fin N) :
    matmul D none lhs rhs (constant (F := Ideal) ⟨2, ![M, N]⟩ .f32 0x00000000#32) (ix2 i j)
      = ∑ k : Fin K, lhs (ix2 i k) * rhs (ix2 k j) := by
  subst hD
  show FloatOps.matmul _ none lhs rhs (constant (F := Ideal) ⟨2, ![M, N]⟩ .f32 0x00000000#32) (ix2 i j) = _
  rw [Ideal.matmul_constant_zero_apply,
    ← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, h0⟩ =>
        unfold DotDims.lhsIdx
        rw [dif_neg List.not_mem_nil,
          dif_pos (show (⟨0, h0⟩ : Fin (⟨2, ![M, K]⟩ : Shape).rank) ∈ [(0 : Fin (⟨2, ![M, K]⟩ : Shape).rank)] from List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, h1⟩ =>
        unfold DotDims.rhsIdx
        rw [dif_neg List.not_mem_nil,
          dif_pos (show (⟨1, h1⟩ : Fin (⟨2, ![K, N]⟩ : Shape).rank) ∈ [(1 : Fin (⟨2, ![K, N]⟩ : Shape).rank)] from List.mem_singleton.mpr rfl)]
        rfl)
  rw [el, er]

/-! ## The causal mask at an index -/

/-- The mask keeps the score at (r, c) when `c ≤ base + r` and replaces it by the fill otherwise: the row number
    is `base` plus the row's position in the block, the column number is the key row. -/
theorem causal_select_apply {N : ℕ} (base : ℕ) (hbase : base + 512 < 2 ^ 31) (hN : N < 2 ^ 31)
    (hi0 : (⟨2, ![512, N]⟩ : Shape).Iotas .tc 32 [0]) (hi1 : (⟨2, ![512, N]⟩ : Shape).Iotas .tc 32 [1])
    (S Z : FVec Ideal ⟨2, ![512, N]⟩ .f32) (r : Fin 512) (c : Fin N) :
    select (cmpi .sge (addi (broadcast ⟨2, ![512, N]⟩ (BitVec.ofNat 32 base)) (iota .tc ⟨2, ![512, N]⟩ 32 [0] hi0))
        (iota .tc ⟨2, ![512, N]⟩ 32 [1] hi1)) S Z (ix2 r c)
      = if c.val ≤ base + r.val then S (ix2 r c) else Z (ix2 r c) := by
  show Scalar.select (IntOp.cmpi .sge (IntOp.addi (BitVec.ofNat 32 base) (iota .tc ⟨2, ![512, N]⟩ 32 [0] hi0 (ix2 r c)))
      (iota .tc ⟨2, ![512, N]⟩ 32 [1] hi1 (ix2 r c))) (S (ix2 r c)) (Z (ix2 r c)) = _
  rw [iota_single_apply, iota_single_apply]
  exact select_sge base r.val c.val (by have := r.isLt; omega) (by have := c.isLt; omega) _ _

/-! ## The block -/

/-- The body's computation for one query block, as a function of the loaded query rows and the loaded key and value
    rows (each with the leading unit axis its staging buffer has). -/
def attnBlock (N base : ℕ)
    (D1 : DotDims ⟨2, ![512, 64]⟩ ⟨2, ![64, N]⟩ ⟨2, ![512, N]⟩)
    (D2 : DotDims ⟨2, ![512, N]⟩ ⟨2, ![N, 64]⟩ ⟨2, ![512, 64]⟩)
    (hq : (⟨3, ![1, 512, 64]⟩ : Shape).ShapeCasts ⟨2, ![512, 64]⟩)
    (hkv : (⟨3, ![1, N, 64]⟩ : Shape).ShapeCasts ⟨2, ![N, 64]⟩)
    (ht : (⟨2, ![N, 64]⟩ : Shape).Transposes [1, 0] ⟨2, ![64, N]⟩)
    (hi0 : (⟨2, ![512, N]⟩ : Shape).Iotas .tc 32 [0]) (hi1 : (⟨2, ![512, N]⟩ : Shape).Iotas .tc 32 [1])
    (ho : (⟨2, ![512, 64]⟩ : Shape).ShapeCasts ⟨3, ![1, 512, 64]⟩)
    (hb : FTy.bits .bf16 < FTy.bits .f32)
    (xq : Vec Ideal ⟨3, ![1, 512, 64]⟩ .f32) (xk xv : Vec Ideal ⟨3, ![1, N, 64]⟩ .f32) :
    FVec Ideal ⟨3, ![1, 512, 64]⟩ .f32 :=
  shapeCast ⟨3, ![1, 512, 64]⟩
    (matmul D2 none
      (truncf .bf16
        (select
          (cmpi .sge (addi (broadcast ⟨2, ![512, N]⟩ (BitVec.ofNat 32 base)) (iota .tc ⟨2, ![512, N]⟩ 32 [0] hi0))
            (iota .tc ⟨2, ![512, N]⟩ 32 [1] hi1))
          (matmul D1 none (truncf .bf16 (shapeCast ⟨2, ![512, 64]⟩ xq hq) hb)
            (transpose ⟨2, ![64, N]⟩ [1, 0] (truncf .bf16 (shapeCast ⟨2, ![N, 64]⟩ xk hkv) hb) ht)
            (constant ⟨2, ![512, N]⟩ .f32 0x00000000#32))
          (broadcast ⟨2, ![512, N]⟩ (Scalar.ofBits .f32 0x00000000#32)))
        hb)
      (truncf .bf16 (shapeCast ⟨2, ![N, 64]⟩ xv hkv) hb)
      (constant ⟨2, ![512, 64]⟩ .f32 0x00000000#32))
    ho

/-- Entry (r, e) of the block is row `base + r` of causal attention over the N loaded rows. -/
theorem attnBlock_apply (N base : ℕ) (hbase : base + 512 < 2 ^ 31) (hN : N < 2 ^ 31)
    (D1 : DotDims ⟨2, ![512, 64]⟩ ⟨2, ![64, N]⟩ ⟨2, ![512, N]⟩)
    (D2 : DotDims ⟨2, ![512, N]⟩ ⟨2, ![N, 64]⟩ ⟨2, ![512, 64]⟩)
    (wf1 : DotDims.WF ⟨2, ![512, 64]⟩ ⟨2, ![64, N]⟩ ⟨2, ![512, N]⟩ [1] [0] [0] [1] [] [])
    (wf2 : DotDims.WF ⟨2, ![512, N]⟩ ⟨2, ![N, 64]⟩ ⟨2, ![512, 64]⟩ [1] [0] [0] [1] [] [])
    (hD1 : D1 = ⟨[1], [0], [0], [1], [], [], wf1⟩) (hD2 : D2 = ⟨[1], [0], [0], [1], [], [], wf2⟩)
    (hq : (⟨3, ![1, 512, 64]⟩ : Shape).ShapeCasts ⟨2, ![512, 64]⟩)
    (hkv : (⟨3, ![1, N, 64]⟩ : Shape).ShapeCasts ⟨2, ![N, 64]⟩)
    (ht : (⟨2, ![N, 64]⟩ : Shape).Transposes [1, 0] ⟨2, ![64, N]⟩)
    (hi0 : (⟨2, ![512, N]⟩ : Shape).Iotas .tc 32 [0]) (hi1 : (⟨2, ![512, N]⟩ : Shape).Iotas .tc 32 [1])
    (ho : (⟨2, ![512, 64]⟩ : Shape).ShapeCasts ⟨3, ![1, 512, 64]⟩)
    (hb : FTy.bits .bf16 < FTy.bits .f32)
    (xq : Vec Ideal ⟨3, ![1, 512, 64]⟩ .f32) (xk xv : Vec Ideal ⟨3, ![1, N, 64]⟩ .f32)
    (u : Fin 1) (r : Fin 512) (e : Fin 64) :
    attnBlock N base D1 D2 hq hkv ht hi0 hi1 ho hb xq xk xv (ix3 u r e)
      = row N (base + r.val) (fun d => xq (ix3 (0 : Fin 1) r d)) (fun c d => xk (ix3 (0 : Fin 1) c d))
          (fun c => xv (ix3 (0 : Fin 1) c e)) := by
  unfold attnBlock
  refine (shapeCast_ab_1ab_apply _ ho u r e).trans ?_
  refine (matmul_plain_apply D2 wf2 hD2 _ _ r e).trans ?_
  unfold row
  refine Finset.sum_congr rfl fun c _ => ?_
  rw [truncf_apply, truncf_apply, shapeCast_1ab_ab_apply, causal_select_apply base hbase hN hi0 hi1,
    matmul_plain_apply D1 wf1 hD1, broadcast_apply]
  have hz : (Scalar.ofBits .f32 0x00000000#32 : Ideal .f32) = (0 : EReal) := Ideal.ofBits_zero_f32
  rw [hz]
  congr 2
  refine Finset.sum_congr rfl fun d _ => ?_
  rw [truncf_apply, shapeCast_1ab_ab_apply, transpose_ix2_apply, truncf_apply, shapeCast_1ab_ab_apply]

end Cert.Causal

end
-- ==== Proof.HeadSpec.lean ====
/-
  One head of causal linear attention as a function of the three buffers a grid point of the kernel works on:
  its queries, keys and values, each [1, 2048, 64]. Entry (0, t, e) of the result is row t of
  `Cert.Causal.row` over all 2048 rows.
-/
import proofs.«102459_j28656021799604_2_alg».proof.Proof.CausalSpec

noncomputable section

namespace Cert.HeadValue

open Idealize.ShloMosaic Idealize.ShloMosaic.ValueIdx Cert.Causal

/-! ## Row t of one head, from the three whole input buffers -/

/-- Row `t`, feature `e` of causal attention for the head held in the buffers `x0` (queries), `x1` (keys), `x2` (values). -/
def headRow (x0 x1 x2 : Vec Ideal ⟨3, ![1, 2048, 64]⟩ .f32) (t : Fin 2048) (e : Fin 64) : EReal :=
  row 2048 t.val (fun d => x0 (ix3 (0 : Fin 1) t d)) (fun s d => x1 (ix3 (0 : Fin 1) s d)) (fun s => x2 (ix3 (0 : Fin 1) s e))

/-- The same as a function of the output buffer's index. -/
def headFn (x0 x1 x2 : Vec Ideal ⟨3, ![1, 2048, 64]⟩ .f32) (y : (⟨3, ![1, 2048, 64]⟩ : Shape).Idx) : EReal :=
  headRow x0 x1 x2 (⟨(y 1).val, (y 1).isLt⟩ : Fin 2048) (⟨(y 2).val, (y 2).isLt⟩ : Fin 64)

theorem headFn_of_coords (x0 x1 x2 : Vec Ideal ⟨3, ![1, 2048, 64]⟩ .f32) (y : (⟨3, ![1, 2048, 64]⟩ : Shape).Idx)
    (t : Fin 2048) (e : Fin 64) (h1 : (y 1).val = t.val) (h2 : (y 2).val = e.val) :
    headFn x0 x1 x2 y = headRow x0 x1 x2 t e := by
  have e1 : (⟨(y 1).val, (y 1).isLt⟩ : Fin 2048) = t := Fin.ext h1
  have e2 : (⟨(y 2).val, (y 2).isLt⟩ : Fin 64) = e := Fin.ext h2
  unfold headFn
  rw [e1, e2]

end Cert.HeadValue

end
-- ==== Proof.HeadValue.lean ====
/-
  What the kernel's body leaves in its output buffer, for one head.

  The body's three input buffers hold one head's queries, keys and values, each [1, 2048, 64]. It writes its output
  buffer in four stores of 512 rows each; the store for rows base … base+511 holds the causal-attention block computed
  from query rows base … base+511 and from key and value rows 0 … base+511 (`Cert.Causal.attnBlock`). Each stored
  piece is therefore the tile, at its rows, of ONE function of the buffer's index: entry (0, t, e) is row t of causal
  attention over all 2048 rows (`headRow`), because the rows past the end of t's block are masked and add zeros
  (`Cert.Causal.row_window`). The four tiles cover the buffer, so after the body the buffer holds that function
  everywhere (`out_eq`).
-/
import proofs.«102459_j28656021799604_2_alg».proof.Proof.Gen.KernelIdeal.Frame
import proofs.«102459_j28656021799604_2_alg».proof.Proof.AttnBlock
import proofs.«102459_j28656021799604_2_alg».proof.Proof.HeadSpec

set_option maxRecDepth 16384

noncomputable section

namespace Cert.HeadValue

open Idealize.ShloMosaic Idealize.ShloMosaic.ValueIdx Cert.KernelIdeal Cert.KernelIdeal.Gen Cert.Causal

/-! ## A load of rows of a buffer, at an index -/

/-- Loading `n` rows from row `base` on: entry (u, r, d) of the loaded rows is entry (0, base + r, d) of the buffer. -/
theorem ld_rows {n : ℕ} (base : ℕ) (inb : ∀ a, (![0, base, 0] : Fin 3 → ℕ) a + (![1, n, 64] : Fin 3 → ℕ) a ≤ (⟨3, ![1, 2048, 64]⟩ : Shape).size a)
    (x : Vec Ideal ⟨3, ![1, 2048, 64]⟩ .f32) (u : Fin 1) (r : Fin n) (d : Fin 64) (hr : base + r.val < 2048) :
    View.ld (Val := Elt Ideal) x (Rect.unit (s := ⟨3, ![1, 2048, 64]⟩) ![0, base, 0] ![1, n, 64] inb) (ix3 u r d)
      = x (ix3 (0 : Fin 1) (⟨base + r.val, hr⟩ : Fin 2048) d) := by
  show x ((Rect.unit (s := ⟨3, ![1, 2048, 64]⟩) ![0, base, 0] ![1, n, 64] inb).emb (ix3 u r d)) = _
  congr 1
  funext a
  apply Fin.ext
  match a with
  | ⟨0, _⟩ => show 0 + 1 * u.val = 0; omega
  | ⟨1, _⟩ => show base + 1 * r.val = base + r.val; omega
  | ⟨2, _⟩ => show 0 + 1 * d.val = d.val; omega

/-! ## One stored piece is a tile of `headRow` -/

/-- The block computed from query rows base … base+511 and the first N = base + 512 key and value rows of the
    buffers is, at (r, e), row base + r of the whole head. -/
theorem block_of_head (N base : ℕ) (hNb : N = base + 512) (hN : N ≤ 2048)
    (D1 : DotDims ⟨2, ![512, 64]⟩ ⟨2, ![64, N]⟩ ⟨2, ![512, N]⟩)
    (D2 : DotDims ⟨2, ![512, N]⟩ ⟨2, ![N, 64]⟩ ⟨2, ![512, 64]⟩)
    (wf1 : DotDims.WF ⟨2, ![512, 64]⟩ ⟨2, ![64, N]⟩ ⟨2, ![512, N]⟩ [1] [0] [0] [1] [] [])
    (wf2 : DotDims.WF ⟨2, ![512, N]⟩ ⟨2, ![N, 64]⟩ ⟨2, ![512, 64]⟩ [1] [0] [0] [1] [] [])
    (hD1 : D1 = ⟨[1], [0], [0], [1], [], [], wf1⟩) (hD2 : D2 = ⟨[1], [0], [0], [1], [], [], wf2⟩)
    (hq : (⟨3, ![1, 512, 64]⟩ : Shape).ShapeCasts ⟨2, ![512, 64]⟩)
    (hkv : (⟨3, ![1, N, 64]⟩ : Shape).ShapeCasts ⟨2, ![N, 64]⟩)
    (ht : (⟨2, ![N, 64]⟩ : Shape).Transposes [1, 0] ⟨2, ![64, N]⟩)
    (hi0 : (⟨2, ![512, N]⟩ : Shape).Iotas .tc 32 [0]) (hi1 : (⟨2, ![512, N]⟩ : Shape).Iotas .tc 32 [1])
    (ho : (⟨2, ![512, 64]⟩ : Shape).ShapeCasts ⟨3, ![1, 512, 64]⟩)
    (hb : FTy.bits .bf16 < FTy.bits .f32)
    (inbq : ∀ a, (![0, base, 0] : Fin 3 → ℕ) a + (![1, 512, 64] : Fin 3 → ℕ) a ≤ (⟨3, ![1, 2048, 64]⟩ : Shape).size a)
    (inbkv : ∀ a, (![0, 0, 0] : Fin 3 → ℕ) a + (![1, N, 64] : Fin 3 → ℕ) a ≤ (⟨3, ![1, 2048, 64]⟩ : Shape).size a)
    (x0 x1 x2 : Vec Ideal ⟨3, ![1, 2048, 64]⟩ .f32) (u : Fin 1) (r : Fin 512) (e : Fin 64) :
    attnBlock N base D1 D2 hq hkv ht hi0 hi1 ho hb
        (View.ld (Val := Elt Ideal) x0 (Rect.unit (s := ⟨3, ![1, 2048, 64]⟩) ![0, base, 0] ![1, 512, 64] inbq))
        (View.ld (Val := Elt Ideal) x1 (Rect.unit (s := ⟨3, ![1, 2048, 64]⟩) ![0, 0, 0] ![1, N, 64] inbkv))
        (View.ld (Val := Elt Ideal) x2 (Rect.unit (s := ⟨3, ![1, 2048, 64]⟩) ![0, 0, 0] ![1, N, 64] inbkv)) (ix3 u r e)
      = headRow x0 x1 x2 (⟨base + r.val, by have := r.isLt; omega⟩ : Fin 2048) e := by
  have hr : base + r.val < 2048 := by have := r.isLt; omega
  refine (attnBlock_apply N base (by omega) (by omega) D1 D2 wf1 wf2 hD1 hD2 hq hkv ht hi0 hi1 ho hb _ _ _ u r e).trans ?_
  unfold headRow
  rw [row_window (N := N) (M := 2048) hN (base + r.val) (by have := r.isLt; omega)]
  show row N (base + r.val) _ _ _ = row N (base + r.val) _ _ _
  congr 1
  · funext d
    exact ld_rows base inbq x0 (0 : Fin 1) r d hr
  · funext c d
    have hc : 0 + c.val < 2048 := by have := c.isLt; omega
    refine (ld_rows 0 inbkv x1 (0 : Fin 1) c d hc).trans ?_
    congr 2
    exact Fin.ext (Nat.zero_add _)
  · funext c
    have hc : 0 + c.val < 2048 := by have := c.isLt; omega
    refine (ld_rows 0 inbkv x2 (0 : Fin 1) c e hc).trans ?_
    congr 2
    exact Fin.ext (Nat.zero_add _)

/-! ## The kernel's four payloads are that block at four sizes -/

/-- The payload stored at rows 1536 … 2047 is the block over the first 2048 rows, from row 1536: the two are the same term. -/
theorem pay_rows1536 (a : Vec Ideal S1x512x64 .f32) (b c : Vec Ideal S1x2048x64 .f32) :
    k0_pay1 (F := Ideal) a b c
      = attnBlock 2048 1536 dot_S512x64_S64x2048_S512x2048_1_0_0_1_n_n dot_S512x2048_S2048x64_S512x64_1_0_0_1_n_n
      shapeCasts_S1x512x64_S512x64 shapeCasts_S1x2048x64_S2048x64 transposes_S2048x64_p1_0_S64x2048
      iota_S512x2048_d0_w32 iota_S512x2048_d1_w32 shapeCasts_S512x64_S1x512x64 bitsLt_bf16_f32 a b c := rfl

/-- The payload stored at rows 1024 … 1535 is the block over the first 1536 rows, from row 1024: the two are the same term. -/
theorem pay_rows1024 (a : Vec Ideal S1x512x64 .f32) (b c : Vec Ideal S1x1536x64 .f32) :
    k0_pay7 (F := Ideal) a b c
      = attnBlock 1536 1024 dot_S512x64_S64x1536_S512x1536_1_0_0_1_n_n dot_S512x1536_S1536x64_S512x64_1_0_0_1_n_n
      shapeCasts_S1x512x64_S512x64 shapeCasts_S1x1536x64_S1536x64 transposes_S1536x64_p1_0_S64x1536
      iota_S512x1536_d0_w32 iota_S512x1536_d1_w32 shapeCasts_S512x64_S1x512x64 bitsLt_bf16_f32 a b c := rfl

/-- The payload stored at rows 512 … 1023 is the block over the first 1024 rows, from row 512: the two are the same term. -/
theorem pay_rows512 (a : Vec Ideal S1x512x64 .f32) (b c : Vec Ideal S1x1024x64 .f32) :
    k0_pay6 (F := Ideal) (k0_pay3 a) (k0_pay4 c) (k0_pay5 b)
      = attnBlock 1024 512 dot_S512x64_S64x1024_S512x1024_1_0_0_1_n_n dot_S512x1024_S1024x64_S512x64_1_0_0_1_n_n
      shapeCasts_S1x512x64_S512x64 shapeCasts_S1x1024x64_S1024x64 transposes_S1024x64_p1_0_S64x1024
      iota_S512x1024_d0_w32 iota_S512x1024_d1_w32 shapeCasts_S512x64_S1x512x64 bitsLt_bf16_f32 a b c := rfl

/-- The payload stored at rows 0 … 511 is the block over the first 512 rows, from row 0: the two are the same term. -/
theorem pay_rows0 (a : Vec Ideal S1x512x64 .f32) (b c : Vec Ideal S1x512x64 .f32) :
    k0_pay2 (F := Ideal) a b c
      = attnBlock 512 0 dot_S512x64_S64x512_S512x512_1_0_0_1_n_n dot_S512x512_S512x64_S512x64_1_0_0_1_n_n
      shapeCasts_S1x512x64_S512x64 shapeCasts_S1x512x64_S512x64 transposes_S512x64_p1_0_S64x512
      iota_S512x512_d0_w32 iota_S512x512_d1_w32 shapeCasts_S512x64_S1x512x64 bitsLt_bf16_f32 a b c := rfl

/-! ## Each stored piece is a tile of `headRow` -/

/-- The piece stored at rows 1536 … 2047, at (r, e), is row 1536 + r of the head. -/
theorem piece_rows1536 (x0 x1 x2 : Vec Ideal S1x2048x64 .f32) (u : Fin 1) (r : Fin 512) (e : Fin 64) :
    k0_pay1 (F := Ideal) (View.ld x0 r0_5) (View.ld x1 r0_6) (View.ld x2 r0_6) (ix3 u r e)
      = headRow x0 x1 x2 (⟨1536 + r.val, by have := r.isLt; omega⟩ : Fin 2048) e := by
  rw [pay_rows1536]
  exact block_of_head 2048 1536 rfl (by omega) _ _
    dot_S512x64_S64x2048_S512x2048_1_0_0_1_n_n_wf dot_S512x2048_S2048x64_S512x64_1_0_0_1_n_n_wf rfl rfl _ _ _ _ _ _ _
    inb_S1x2048x64_S1x512x64_0_1536_0 inb_S1x2048x64_S1x2048x64_0_0_0 x0 x1 x2 u r e

/-- The piece stored at rows 1024 … 1535, at (r, e), is row 1024 + r of the head. -/
theorem piece_rows1024 (x0 x1 x2 : Vec Ideal S1x2048x64 .f32) (u : Fin 1) (r : Fin 512) (e : Fin 64) :
    k0_pay7 (F := Ideal) (View.ld x0 r0_3) (View.ld x1 r0_4) (View.ld x2 r0_4) (ix3 u r e)
      = headRow x0 x1 x2 (⟨1024 + r.val, by have := r.isLt; omega⟩ : Fin 2048) e := by
  rw [pay_rows1024]
  exact block_of_head 1536 1024 rfl (by omega) _ _
    dot_S512x64_S64x1536_S512x1536_1_0_0_1_n_n_wf dot_S512x1536_S1536x64_S512x64_1_0_0_1_n_n_wf rfl rfl _ _ _ _ _ _ _
    inb_S1x2048x64_S1x512x64_0_1024_0 inb_S1x2048x64_S1x1536x64_0_0_0 x0 x1 x2 u r e

/-- The piece stored at rows 512 … 1023, at (r, e), is row 512 + r of the head. -/
theorem piece_rows512 (x0 x1 x2 : Vec Ideal S1x2048x64 .f32) (u : Fin 1) (r : Fin 512) (e : Fin 64) :
    k0_pay6 (F := Ideal) (k0_pay3 (View.ld x0 r0_1)) (k0_pay4 (View.ld x2 r0_2)) (k0_pay5 (View.ld x1 r0_2)) (ix3 u r e)
      = headRow x0 x1 x2 (⟨512 + r.val, by have := r.isLt; omega⟩ : Fin 2048) e := by
  rw [pay_rows512]
  exact block_of_head 1024 512 rfl (by omega) _ _
    dot_S512x64_S64x1024_S512x1024_1_0_0_1_n_n_wf dot_S512x1024_S1024x64_S512x64_1_0_0_1_n_n_wf rfl rfl _ _ _ _ _ _ _
    inb_S1x2048x64_S1x512x64_0_512_0 inb_S1x2048x64_S1x1024x64_0_0_0 x0 x1 x2 u r e

/-- The piece stored at rows 0 … 511, at (r, e), is row 0 + r of the head. -/
theorem piece_rows0 (x0 x1 x2 : Vec Ideal S1x2048x64 .f32) (u : Fin 1) (r : Fin 512) (e : Fin 64) :
    k0_pay2 (F := Ideal) (View.ld x0 r0_0) (View.ld x1 r0_0) (View.ld x2 r0_0) (ix3 u r e)
      = headRow x0 x1 x2 (⟨0 + r.val, by have := r.isLt; omega⟩ : Fin 2048) e := by
  rw [pay_rows0]
  exact block_of_head 512 0 rfl (by omega) _ _
    dot_S512x64_S64x512_S512x512_1_0_0_1_n_n_wf dot_S512x512_S512x64_S512x64_1_0_0_1_n_n_wf rfl rfl _ _ _ _ _ _ _
    inb_S1x2048x64_S1x512x64_0_0_0 inb_S1x2048x64_S1x512x64_0_0_0 x0 x1 x2 u r e

/-! ## The buffer after the body -/

/-- After the body the output buffer holds, at (0, t, e), row t of the head: its four stored pieces are the tiles of
    that one function at rows 0–511, 512–1023, 1024–1535 and 1536–2047, and they cover the buffer. -/
theorem out_eq (x0 x1 x2 : Vec Ideal S1x2048x64 .f32) : out0_3 (F := Ideal) x0 x1 x2 = headFn x0 x1 x2 := by
  funext y
  unfold out0_3
  refine View.canon_apply_of_pieces (Val := Elt Ideal) (e := .f32) (headFn x0 x1 x2) _ ?_ y (cover0_3 _ _ _ _ y)
  intro p hp x
  simp only [List.mem_cons, List.mem_nil_iff, or_false] at hp
  rcases hp with rfl | rfl | rfl | rfl
  · obtain ⟨u, r, e, rfl⟩ : ∃ (u : Fin 1) (r : Fin 512) (e : Fin 64), x = ix3 u r e := ⟨x 0, x 1, x 2, eq_ix3 x⟩
    refine (piece_rows1536 x0 x1 x2 u r e).trans (headFn_of_coords x0 x1 x2 _ _ _ ?_ ?_).symm
    · show 1536 + 1 * r.val = 1536 + r.val; omega
    · show 0 + 1 * e.val = e.val; omega
  · obtain ⟨u, r, e, rfl⟩ : ∃ (u : Fin 1) (r : Fin 512) (e : Fin 64), x = ix3 u r e := ⟨x 0, x 1, x 2, eq_ix3 x⟩
    refine (piece_rows1024 x0 x1 x2 u r e).trans (headFn_of_coords x0 x1 x2 _ _ _ ?_ ?_).symm
    · show 1024 + 1 * r.val = 1024 + r.val; omega
    · show 0 + 1 * e.val = e.val; omega
  · obtain ⟨u, r, e, rfl⟩ : ∃ (u : Fin 1) (r : Fin 512) (e : Fin 64), x = ix3 u r e := ⟨x 0, x 1, x 2, eq_ix3 x⟩
    refine (piece_rows512 x0 x1 x2 u r e).trans (headFn_of_coords x0 x1 x2 _ _ _ ?_ ?_).symm
    · show 512 + 1 * r.val = 512 + r.val; omega
    · show 0 + 1 * e.val = e.val; omega
  · obtain ⟨u, r, e, rfl⟩ : ∃ (u : Fin 1) (r : Fin 512) (e : Fin 64), x = ix3 u r e := ⟨x 0, x 1, x 2, eq_ix3 x⟩
    refine (piece_rows0 x0 x1 x2 u r e).trans (headFn_of_coords x0 x1 x2 _ _ _ ?_ ?_).symm
    · show 0 + 1 * r.val = 0 + r.val; omega
    · show 0 + 1 * e.val = e.val; omega

end Cert.HeadValue

end
-- ==== Proof.HostReshape.lean ====
/-
  The host reshapes around the region.

  Before the region the program views each argument, of shape [4, 16, 2048, 64], as an array of shape [64, 2048, 64],
  and after it views the region's result, of shape [64, 2048, 64], as [4, 16, 2048, 64].  A reshape keeps the elements
  in row-major order, so entry (16·b + h, t, d) of the three-axis array is entry (b, h, t, d) of the four-axis one:
      ((16·b + h)·2048 + t)·64 + d  =  ((b·16 + h)·2048 + t)·64 + d.
  Head 16·b + h of the flat array is batch b, head h.
-/
import proofs.«102459_j28656021799604_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.HostReshape

open Idealize.ShloMosaic Idealize.ShloMosaic.TcCoe Idealize.ShloMosaic.ValueIdx Idealize.SL.Sem Cert.KernelIdeal Cert.KernelIdeal.Gen

variable {F : FTy → Type} [FloatOps F]
variable (m : (ℓ : Loc nD τ sig) → Buf (Elt F) ℓ)

/-- A [4, 16, 2048, 64] array viewed as [64, 2048, 64]: entry (16·b + h, t, d) of the view is entry (b, h, t, d),
    the two having the same row-major position. -/
theorem cast_in_apply {α : Type} (x : S4x16x2048x64.Idx → α) (b : Fin 4) (h : Fin 16) (t : Fin 2048) (d : Fin 64)
    (hb : 16 * b.val + h.val < 64) :
    shapeCast S64x2048x64 x shapeCasts_S4x16x2048x64_S64x2048x64 (ix3 (⟨16 * b.val + h.val, hb⟩ : Fin 64) t d)
      = x (ix4 b h t d) := by
  refine shapeCast_apply x _ _ _ ?_
  rw [Shape.rowMajor_val_four, Shape.rowMajor_val_three]
  show ((b.val * 16 + h.val) * 2048 + t.val) * 64 + d.val = ((16 * b.val + h.val) * 2048 + t.val) * 64 + d.val
  omega

/-- A [64, 2048, 64] array viewed as [4, 16, 2048, 64]: entry (b, h, t, e) of the view is entry (16·b + h, t, e),
    the two having the same row-major position. -/
theorem cast_out_apply {α : Type} (x : S64x2048x64.Idx → α) (b : Fin 4) (h : Fin 16) (t : Fin 2048) (e : Fin 64)
    (hb : 16 * b.val + h.val < 64) :
    shapeCast S4x16x2048x64 x shapeCasts_S64x2048x64_S4x16x2048x64 (ix4 b h t e)
      = x (ix3 (⟨16 * b.val + h.val, hb⟩ : Fin 64) t e) := by
  refine shapeCast_apply x _ _ _ ?_
  rw [Shape.rowMajor_val_four, Shape.rowMajor_val_three]
  show ((16 * b.val + h.val) * 2048 + t.val) * 64 + e.val = ((b.val * 16 + h.val) * 2048 + t.val) * 64 + e.val
  omega

/-- Entry (16·b + h, t, d) of the array the region reads as its window 0 is entry (b, h, t, d) of argument 0: the
    array is that argument viewed as [64, 2048, 64]. -/
theorem entry_v0 (c : Dev nD) (b : Fin 4) (h : Fin 16) (t : Fin 2048) (d : Fin 64) :
    V m c main_v0 (ix3 (⟨16 * b.val + h.val, by omega⟩ : Fin 64) t d) = m ((c : Thread nD τ).loc main_arg0) (ix4 b h t d) := by
  have e : (V m c main_v0 : S64x2048x64.Idx → Elt F .f32)
      = shapeCast S64x2048x64 (m ((c : Thread nD τ).loc main_arg0)) shapeCasts_S4x16x2048x64_S64x2048x64 := by
    show StableHlo.after hostOps0 (fun b => m (c, b)) (Proc.devRef .tc main_v0) = _
    after_results
    rfl
  exact (congrFun e _).trans (cast_in_apply _ b h t d _)

/-- Entry (16·b + h, t, d) of the array the region reads as its window 1 is entry (b, h, t, d) of argument 1: the
    array is that argument viewed as [64, 2048, 64]. -/
theorem entry_v1 (c : Dev nD) (b : Fin 4) (h : Fin 16) (t : Fin 2048) (d : Fin 64) :
    V m c main_v1 (ix3 (⟨16 * b.val + h.val, by omega⟩ : Fin 64) t d) = m ((c : Thread nD τ).loc main_arg1) (ix4 b h t d) := by
  have e : (V m c main_v1 : S64x2048x64.Idx → Elt F .f32)
      = shapeCast S64x2048x64 (m ((c : Thread nD τ).loc main_arg1)) shapeCasts_S4x16x2048x64_S64x2048x64 := by
    show StableHlo.after hostOps0 (fun b => m (c, b)) (Proc.devRef .tc main_v1) = _
    after_results
    rfl
  exact (congrFun e _).trans (cast_in_apply _ b h t d _)

/-- Entry (16·b + h, t, d) of the array the region reads as its window 2 is entry (b, h, t, d) of argument 2: the
    array is that argument viewed as [64, 2048, 64]. -/
theorem entry_v2 (c : Dev nD) (b : Fin 4) (h : Fin 16) (t : Fin 2048) (d : Fin 64) :
    V m c main_v2 (ix3 (⟨16 * b.val + h.val, by omega⟩ : Fin 64) t d) = m ((c : Thread nD τ).loc main_arg2) (ix4 b h t d) := by
  have e : (V m c main_v2 : S64x2048x64.Idx → Elt F .f32)
      = shapeCast S64x2048x64 (m ((c : Thread nD τ).loc main_arg2)) shapeCasts_S4x16x2048x64_S64x2048x64 := by
    show StableHlo.after hostOps0 (fun b => m (c, b)) (Proc.devRef .tc main_v2) = _
    after_results
    rfl
  exact (congrFun e _).trans (cast_in_apply _ b h t d _)

/-- Entry (b, h, t, e) of the program's result is entry (16·b + h, t, e) of the array the region leaves in its
    output window: the one operation after the region views that array as [4, 16, 2048, 64]. -/
theorem tail_v4 (c : Dev nD) (b : Fin 4) (h : Fin 16) (t : Fin 2048) (e : Fin 64) :
    Pipeline.afterTail₀ cfgs (dats m) 0 (V0 m) [hostOps1] c main_v4 (ix4 b h t e)
      = (dats m 0 c).arrAt 3 cfg0.N (ix3 (⟨16 * b.val + h.val, by omega⟩ : Fin 64) t e) := by
  have e1 : (Pipeline.afterTail₀ cfgs (dats m) 0 (V0 m) [hostOps1] c main_v4 : S4x16x2048x64.Idx → Elt F .f32)
      = shapeCast S4x16x2048x64 ((dats m 0 c).arrAt 3 cfg0.N) shapeCasts_S64x2048x64_S4x16x2048x64 := by
    unfold Pipeline.afterTail₀
    show StableHlo.after hostOps1 _ (Proc.devRef .tc main_v4) = _
    after_results
    have hw : Pipeline.withArrays (cfgs 0).spec c (V0 m c) (fun w => (dats m 0 c).arrAt w (cfgs 0).N)
        (Proc.devRef .tc main_v3) = (dats m 0 c).arrAt 3 cfg0.N :=
      Pipeline.withArrays_arr spec0 launch0.win.arr_inj c _ _ 3
    rw [hw]
    rfl
  exact (congrFun e1 _).trans (cast_out_apply _ b h t e _)

end Cert.HostReshape

end
-- ==== Proof.ArrayValue.lean ====
/-
  From what each grid point writes back to the whole output array.

  The region runs over 64 points; point p works on head p: each of its four windows is the block [1, 2048, 64] at
  block index (p, 0, 0) of a [64, 2048, 64] array, that is, rows (p, ·, ·).  So entry (0, s, d) of a window's block at
  point p is entry (p, s, d) of the window's array.  Given that the body leaves in the output block one head of causal
  linear attention of its three input blocks, point p writes back rows (p, ·, ·) of the one whole-array function
      (bh, r, e)  ↦  row r of causal linear attention of head bh of the three input arrays,
  and since entry (bh, r, e) of the output array lies in the block of point bh, the array ends holding that function.
-/
import proofs.«102459_j28656021799604_2_alg».proof.Proof.Gen.KernelIdeal.Frame
import proofs.«102459_j28656021799604_2_alg».proof.Proof.HeadSpec
import Idealize.ShloMosaic.Lib.ValueIdx
import Idealize.ShloMosaic.Lib.Pipeline.Value

set_option maxRecDepth 16384

noncomputable section

namespace Cert.ArrayValue

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The printed index maps, decided over the 64 points of the grid: at point p every window's block index is
    (p, 0, 0). -/
theorem head_of_point : ∀ p : Fin cfg0.N,
    (win0_0.index p (0 : Fin 3) = p.val ∧ win0_0.index p (1 : Fin 3) = 0 ∧ win0_0.index p (2 : Fin 3) = 0)
    ∧ (win0_1.index p (0 : Fin 3) = p.val ∧ win0_1.index p (1 : Fin 3) = 0 ∧ win0_1.index p (2 : Fin 3) = 0)
    ∧ (win0_2.index p (0 : Fin 3) = p.val ∧ win0_2.index p (1 : Fin 3) = 0 ∧ win0_2.index p (2 : Fin 3) = 0)
    ∧ (win0_3.index p (0 : Fin 3) = p.val ∧ win0_3.index p (1 : Fin 3) = 0 ∧ win0_3.index p (2 : Fin 3) = 0) :=
  (by decide +kernel : ∀ p : Fin grid0.N, _)

/-- Entry (0, s, d) of the query block at point p is entry (p, s, d) of the query array: the block sits at block index
    (p, 0, 0), and a block's coordinate is its index times the block's extent plus the coordinate inside it. -/
theorem query_block (c : Dev nD) (p : Fin cfg0.N) (bh : Fin 64) (hp : p.val = bh.val) (s : Fin 2048) (d : Fin 64) :
    iblk m c 0 p (ix3 (0 : Fin 1) s d) = V m c main_v0 (ix3 bh s d) := by
  show V m c main_v0 (((cfg0.win 0).blk p).view.emb (ix3 (0 : Fin 1) s d)) = V m c main_v0 (ix3 bh s d)
  obtain ⟨⟨a0, a1, a2⟩, ⟨b0, b1, b2⟩, ⟨c0, c1, c2⟩, -⟩ := head_of_point p
  refine congrArg (V m c main_v0) (funext fun a => Fin.ext ?_)
  match a with
  | ⟨0, _⟩ => show win0_0.index p (0 : Fin 3) * 1 + 1 * 0 = bh.val; omega
  | ⟨1, _⟩ => show win0_0.index p (1 : Fin 3) * 2048 + 1 * s.val = s.val; omega
  | ⟨2, _⟩ => show win0_0.index p (2 : Fin 3) * 64 + 1 * d.val = d.val; omega

/-- Entry (0, s, d) of the key block at point p is entry (p, s, d) of the key array: the block sits at block index
    (p, 0, 0), and a block's coordinate is its index times the block's extent plus the coordinate inside it. -/
theorem key_block (c : Dev nD) (p : Fin cfg0.N) (bh : Fin 64) (hp : p.val = bh.val) (s : Fin 2048) (d : Fin 64) :
    iblk m c 1 p (ix3 (0 : Fin 1) s d) = V m c main_v1 (ix3 bh s d) := by
  show V m c main_v1 (((cfg0.win 1).blk p).view.emb (ix3 (0 : Fin 1) s d)) = V m c main_v1 (ix3 bh s d)
  obtain ⟨⟨a0, a1, a2⟩, ⟨b0, b1, b2⟩, ⟨c0, c1, c2⟩, -⟩ := head_of_point p
  refine congrArg (V m c main_v1) (funext fun a => Fin.ext ?_)
  match a with
  | ⟨0, _⟩ => show win0_1.index p (0 : Fin 3) * 1 + 1 * 0 = bh.val; omega
  | ⟨1, _⟩ => show win0_1.index p (1 : Fin 3) * 2048 + 1 * s.val = s.val; omega
  | ⟨2, _⟩ => show win0_1.index p (2 : Fin 3) * 64 + 1 * d.val = d.val; omega

/-- Entry (0, s, d) of the value block at point p is entry (p, s, d) of the value array: the block sits at block index
    (p, 0, 0), and a block's coordinate is its index times the block's extent plus the coordinate inside it. -/
theorem value_block (c : Dev nD) (p : Fin cfg0.N) (bh : Fin 64) (hp : p.val = bh.val) (s : Fin 2048) (d : Fin 64) :
    iblk m c 2 p (ix3 (0 : Fin 1) s d) = V m c main_v2 (ix3 bh s d) := by
  show V m c main_v2 (((cfg0.win 2).blk p).view.emb (ix3 (0 : Fin 1) s d)) = V m c main_v2 (ix3 bh s d)
  obtain ⟨⟨a0, a1, a2⟩, ⟨b0, b1, b2⟩, ⟨c0, c1, c2⟩, -⟩ := head_of_point p
  refine congrArg (V m c main_v2) (funext fun a => Fin.ext ?_)
  match a with
  | ⟨0, _⟩ => show win0_2.index p (0 : Fin 3) * 1 + 1 * 0 = bh.val; omega
  | ⟨1, _⟩ => show win0_2.index p (1 : Fin 3) * 2048 + 1 * s.val = s.val; omega
  | ⟨2, _⟩ => show win0_2.index p (2 : Fin 3) * 64 + 1 * d.val = d.val; omega

/-- One head at point p: row r of causal linear attention of the three input blocks at point p is row r of causal
    linear attention of head p of the three input arrays. -/
theorem head_at_point (c : Dev nD) (p : Fin cfg0.N) (bh : Fin 64) (hp : p.val = bh.val) (r : Fin 2048) (e : Fin 64) :
    Cert.HeadValue.headRow (iblk m c 0 p) (iblk m c 1 p) (iblk m c 2 p) r e
      = Cert.Causal.causal3 (V m c main_v0) (V m c main_v1) (V m c main_v2) bh r e := by
  have hq : (fun d : Fin 64 => iblk m c 0 p (ix3 (0 : Fin 1) r d)) = fun d => V m c main_v0 (ix3 bh r d) :=
    funext fun d => query_block m c p bh hp r d
  have hk : (fun (s : Fin 2048) (d : Fin 64) => iblk m c 1 p (ix3 (0 : Fin 1) s d)) = fun s d => V m c main_v1 (ix3 bh s d) :=
    funext fun s => funext fun d => key_block m c p bh hp s d
  have hv : (fun s : Fin 2048 => iblk m c 2 p (ix3 (0 : Fin 1) s e)) = fun s => V m c main_v2 (ix3 bh s e) :=
    funext fun s => value_block m c p bh hp s e
  unfold Cert.HeadValue.headRow Cert.Causal.causal3
  exact congr (congr (congrArg (Cert.Causal.row 2048 r.val) hq) hk) hv

/-- The whole output array as one function of the three input arrays as the region finds them: entry (bh, r, e) is
    row r, feature e of causal linear attention of head bh. -/
def causalArray (c : Dev nD) : S64x2048x64.Idx → EReal := fun i =>
  Cert.Causal.causal3 (V m c main_v0) (V m c main_v1) (V m c main_v2)
    (⟨(i 0).val, (i 0).isLt⟩ : Fin 64) (⟨(i 1).val, (i 1).isLt⟩ : Fin 2048) (⟨(i 2).val, (i 2).isLt⟩ : Fin 64)

/-- That function read at (bh, r, e). -/
theorem causalArray_apply (c : Dev nD) (bh : Fin 64) (r : Fin 2048) (e : Fin 64) :
    causalArray m c (ix3 bh r e) = Cert.Causal.causal3 (V m c main_v0) (V m c main_v1) (V m c main_v2) bh r e := rfl

/-- What point p writes back is rows (p, ·, ·) of the whole-array function: the body leaves one head of causal linear
    attention of the three input blocks, which are rows (p, ·, ·) of the three input arrays. -/
theorem written_back (hout : ∀ x0 x1 x2 : Vec Ideal S1x2048x64 .f32, out0_3 (F := Ideal) x0 x1 x2 = Cert.HeadValue.headFn x0 x1 x2)
    (c : Dev nD) (p : Fin cfg0.N) :
    (dats (F := Ideal) m 0 c).flushed 3 p = ((cfg0.win 3).blk p).view.read (Elt Ideal) (causalArray m c) := by
  show (cfg0.win 3).cut (grid0.coords p) ((dats (F := Ideal) m 0 c).after 3 p) = _
  rw [after0_3]
  have hN : grid0.N = 64 := N_0
  have hpl : p.val < grid0.N := p.isLt
  obtain ⟨bh, hp⟩ : ∃ bh : Fin 64, p.val = bh.val := ⟨⟨p.val, by omega⟩, rfl⟩
  obtain ⟨-, -, -, ⟨d0, d1, d2⟩⟩ := head_of_point p
  funext y
  have hy0 : (y 0).val < 1 := (y 0).isLt
  have hy : ((cfg0.win 3).blk p).view.emb y
      = ix3 bh (⟨(y 1).val, (y 1).isLt⟩ : Fin 2048) (⟨(y 2).val, (y 2).isLt⟩ : Fin 64) := funext fun a => Fin.ext (by
    match a with
    | ⟨0, _⟩ => show win0_3.index p (0 : Fin 3) * 1 + 1 * (y 0).val = bh.val; omega
    | ⟨1, _⟩ => show win0_3.index p (1 : Fin 3) * 2048 + 1 * (y 1).val = (y 1).val; omega
    | ⟨2, _⟩ => show win0_3.index p (2 : Fin 3) * 64 + 1 * (y 2).val = (y 2).val; omega)
  rw [View.read_apply, hy, causalArray_apply]
  show out0_3 (iblk m c 0 p) (iblk m c 1 p) (iblk m c 2 p) y = _
  refine (congrFun (hout (iblk m c 0 p) (iblk m c 1 p) (iblk m c 2 p)) y).trans ?_
  refine (Cert.HeadValue.headFn_of_coords (iblk m c 0 p) (iblk m c 1 p) (iblk m c 2 p) y
    (⟨(y 1).val, (y 1).isLt⟩ : Fin 2048) (⟨(y 2).val, (y 2).isLt⟩ : Fin 64) rfl rfl).trans ?_
  exact head_at_point m c p bh hp _ _

/-- An index of the output array is in point p's block iff each coordinate is in the block's range on its axis. -/
theorem mem_block (p : Fin cfg0.N) (i : S64x2048x64.Idx) :
    i ∈ ((cfg0.win 3).blk p).view.set ↔ ∀ a : Fin 3, win0_3.index p a * S1x2048x64.size a ≤ (i a).val
      ∧ (i a).val < win0_3.index p a * S1x2048x64.size a + S1x2048x64.size a := by
  show i ∈ ((View.whole main_v3).slice (win0_3.rect p)).set ↔ _
  rw [View.set_slice_whole, Rect.mem_set_unit]
  exact Iff.rfl

/-- After the region, entry (bh, r, e) of the output array is row r of causal linear attention of head bh of the three
    input arrays as the region found them: the entry lies in the block of point bh, and every point writes back its
    rows of that one function. -/
theorem final3 (hout : ∀ x0 x1 x2 : Vec Ideal S1x2048x64 .f32, out0_3 (F := Ideal) x0 x1 x2 = Cert.HeadValue.headFn x0 x1 x2)
    (c : Dev nD) (bh : Fin 64) (t : Fin 2048) (e : Fin 64) :
    (dats (F := Ideal) m 0 c).arrAt 3 cfg0.N (ix3 bh t e)
      = Cert.Causal.causal3 (V m c main_v0) (V m c main_v1) (V m c main_v2) bh t e := by
  have hN : grid0.N = 64 := N_0
  obtain ⟨p, hp⟩ : ∃ p : Fin cfg0.N, p.val = bh.val := ⟨⟨bh.val, by show bh.val < grid0.N; omega⟩, rfl⟩
  obtain ⟨-, -, -, ⟨d0, d1, d2⟩⟩ := head_of_point p
  have hi : (ix3 bh t e : S64x2048x64.Idx) ∈ ((cfg0.win 3).blk p).view.set := by
    rw [mem_block]
    intro a
    match a with
    | ⟨0, _⟩ => show win0_3.index p (0 : Fin 3) * 1 ≤ bh.val ∧ bh.val < win0_3.index p (0 : Fin 3) * 1 + 1; omega
    | ⟨1, _⟩ => show win0_3.index p (1 : Fin 3) * 2048 ≤ t.val ∧ t.val < win0_3.index p (1 : Fin 3) * 2048 + 2048; omega
    | ⟨2, _⟩ => show win0_3.index p (2 : Fin 3) * 64 ≤ e.val ∧ e.val < win0_3.index p (2 : Fin 3) * 64 + 64; omega
  exact ((dats (F := Ideal) m 0 c).arrAt_apply_of_mem 3 (causalArray m c) (fun p' _ => written_back m hout c p')
    cfg0.N p (ix3 bh t e) p.isLt (flush0_3 p) hi).trans (causalArray_apply m c bh t e)

end Cert.ArrayValue

end
-- ==== Proof.KernelValue.lean ====
/-
  The idealized kernel's result is causal linear attention of its arguments.

  The program views each argument [4, 16, 2048, 64] as [64, 2048, 64] (head 16·b + h of the flat array is batch b,
  head h), runs one grid point per head — which leaves in the output array, at (head, t, e), row t of that head's causal
  attention — and views the output array as [4, 16, 2048, 64] again. Entry (b, h, t, e) of the result is therefore row t
  of causal attention over the rows of batch b, head h of the arguments.
-/
import proofs.«102459_j28656021799604_2_alg».proof.Proof.Gen.KernelIdeal.Frame
import proofs.«102459_j28656021799604_2_alg».proof.Proof.HeadValue
import proofs.«102459_j28656021799604_2_alg».proof.Proof.HostReshape
import proofs.«102459_j28656021799604_2_alg».proof.Proof.ArrayValue

noncomputable section

namespace Cert.KernelValue

open Idealize.ShloMosaic Idealize.ShloMosaic.TcCoe Idealize.ShloMosaic.ValueIdx Idealize.SL.Sem Cert.KernelIdeal Cert.KernelIdeal.Gen Cert.Causal

variable (m : (ℓ : Loc nD τ sig) → Buf (Elt Ideal) ℓ) (ρ : Dev nD → PrngReg)

/-- Entry (b, h, t, e) of what the program leaves in its result buffer: through the last reshape it is entry
    (16·b + h, t, e) of the region's output array, which is row t of head 16·b + h of the reshaped arguments, whose
    rows are the rows of batch b, head h of the arguments themselves. -/
theorem result_apply (c : Dev nD) (b : Fin 4) (h : Fin 16) (t : Fin 2048) (e : Fin 64) :
    Pipeline.afterTail₀ cfgs (dats m) 0 (V0 m) [hostOps1] c main_v4 (ix4 b h t e)
      = causal4 (m ((c : Thread nD τ).loc main_arg0)) (m ((c : Thread nD τ).loc main_arg1))
          (m ((c : Thread nD τ).loc main_arg2)) b h t e := by
  refine (Cert.HostReshape.tail_v4 m c b h t e).trans ?_
  refine (Cert.ArrayValue.final3 m Cert.HeadValue.out_eq c _ t e).trans ?_
  unfold causal3 causal4
  congr 1
  · funext d; exact Cert.HostReshape.entry_v0 m c b h t d
  · funext s d; exact Cert.HostReshape.entry_v1 m c b h s d
  · funext s; exact Cert.HostReshape.entry_v2 m c b h s e

/-- Every weakly fair execution of the idealized kernel terminates with its result buffer holding causal linear
    attention of the arguments, and the arguments unchanged. -/
theorem run : θ_run defs (onTc (τ := τ) (main (F := Ideal))) ⟨m, fun _ => 0, ρ⟩ (fun r => ∀ c : Dev nD,
      r.2.mem ((c.tc : Thread nD τ).loc main_v4)
        = (fun i => causal4 (m ((c.tc : Thread nD τ).loc main_arg0)) (m ((c.tc : Thread nD τ).loc main_arg1))
            (m ((c.tc : Thread nD τ).loc main_arg2)) (i 0) (i 1) (i 2) (i 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_,
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩)
    (run_main m ρ)
  refine ((h c).2 main_v4 (Pipeline.mem_restRefs_of main_v4 (by decide) (by decide))).trans ?_
  funext i
  obtain ⟨b, hh, t, e, rfl⟩ : ∃ (b : Fin 4) (hh : Fin 16) (t : Fin 2048) (e : Fin 64), i = ix4 b hh t e :=
    ⟨i 0, i 1, i 2, i 3, eq_ix4 i⟩
  exact result_apply m c b hh t e

end Cert.KernelValue

end
-- ==== Proof.RefCausal.lean ====
/-
  The reference program computes causal linear attention.

  The reference forms every score  Σ_d q[b,h,t,d] · k[b,h,s,d],  multiplies the score of (t, s) by the entry
  m[t, s] of a lower-triangular matrix of ones (1 when s ≤ t, 0 otherwise), and contracts the masked scores with
  the values:  out[b,h,t,e] = Σ_s (score(t,s) · m[t,s]) · v[b,h,s,e].  Since x · 1 = x and x · 0 = 0 for every
  extended real x, the masked score is the score when s ≤ t and zero otherwise, which is the row of causal linear
  attention.  The triangular matrix is written as a select between the words of 1.0 and 0.0 on the signed
  comparison (t + 0 ≥ s) of 32-bit words; t and s are below 2048, so that comparison is the inequality s ≤ t of
  naturals.  Nothing is assumed of the inputs.
-/
import proofs.«102459_j28656021799604_2_alg».proof.Proof.Gen.ReferenceIdeal.Read
import proofs.«102459_j28656021799604_2_alg».proof.Proof.CausalSpec
import Idealize.ShloMosaic.Lib.IdealHost

noncomputable section

namespace Cert.RefCausal

open Idealize.ShloMosaic Idealize.ShloMosaic.ValueIdx Cert.ReferenceIdeal Cert.ReferenceIdeal.Read

/-- The entry (t, s) of the triangular matrix is 1 when s ≤ t and 0 otherwise: the select on the signed word
    comparison t + 0 ≥ s picks the word of 1.0 or of 0.0, and both coordinates are below 2048. -/
theorem tril_apply (j : S2048x2048.Idx) :
    val_main_v2 (F := Ideal) j = if (j 1).val ≤ (j 0).val then (1 : EReal) else 0 := by
  have h0 : (j 0).val < 2048 := idx2_lt0 j
  have h1 : (j 1).val < 2048 := idx2_lt1 j
  rw [val_main_v2_apply, val_main_call0_v4_apply, val_main_call0_v2_apply, val_main_call0_v0_apply,
    val_main_call0_v1_apply, val_main_call0_c_apply, val_main_call0_v3_apply, val_main_v1_apply, val_main_cst_apply,
    val_main_call0_v5_apply, val_main_call0_cst_apply, Ideal.ofBits_def, Ideal.ofBits_def, Ideal.ofBits_one_f32,
    Ideal.ofBits_zero_f32]
  refine (Cert.Causal.select_sge (j 0).val 0 (j 1).val (by omega) (by omega) (1 : EReal) 0).trans ?_
  rw [Nat.add_zero]

/-- The triangular matrix broadcast over batch and head: its entry at (b, h, t, s) is 1 when s ≤ t, else 0. -/
theorem mask_apply (j : S4x16x2048x2048.Idx) :
    val_main_v4 (F := Ideal) j = if (j 3).val ≤ (j 2).val then (1 : EReal) else 0 := by
  rw [val_main_v4_apply, val_main_v3_apply, tril_apply]

/-- The score of (t, s) in head (b, h) is the dot product of query row t with key row s. -/
theorem score_apply (q k : (⟨S4x16x2048x64, .f32⟩ : BufTy).Contents (Elt Ideal))
    (b : Fin 4) (h : Fin 16) (t s : Fin 2048) :
    val_main_v0 (F := Ideal) q k (ix4 b h t s) = ∑ d : Fin 64, q (ix4 b h t d) * k (ix4 b h s d) := by
  rw [val_main_v0_apply]
  refine Finset.sum_congr rfl fun d _ => ?_
  have hl : lidx_main_v0 (ix4 b h t s) d = ix4 b h t d := funext fun a => Fin.ext (by
    match a with | ⟨0, _⟩ => rfl | ⟨1, _⟩ => rfl | ⟨2, _⟩ => rfl | ⟨3, _⟩ => rfl)
  have hr : ridx_main_v0 (ix4 b h t s) d = ix4 b h s d := funext fun a => Fin.ext (by
    match a with | ⟨0, _⟩ => rfl | ⟨1, _⟩ => rfl | ⟨2, _⟩ => rfl | ⟨3, _⟩ => rfl)
  rw [hl, hr]

/-- The reference program's result is causal linear attention: at (b, h, t, e) it is the sum over the rows s of
    the masked score of (t, s) times the value at (s, e), the masked score being the dot product of query row t
    with key row s when s ≤ t and zero otherwise.  The program masks by multiplying the score by 1 or by 0. -/
theorem ref_eq (q k v : (⟨S4x16x2048x64, .f32⟩ : BufTy).Contents (Elt Ideal)) :
    val_main_v6 (F := Ideal) q k v = fun i => Cert.Causal.causal4 q k v (i 0) (i 1) (i 2) (i 3) := by
  funext i
  obtain ⟨b, h, t, e, rfl⟩ : ∃ (b : Fin 4) (h : Fin 16) (t : Fin 2048) (e : Fin 64), i = ix4 b h t e :=
    ⟨i 0, i 1, i 2, i 3, eq_ix4 i⟩
  rw [val_main_v6_apply]
  show _ = Cert.Causal.causal4 q k v b h t e
  unfold Cert.Causal.causal4 Cert.Causal.row
  refine Finset.sum_congr rfl fun s _ => ?_
  have hl : lidx_main_v6 (ix4 b h t e) s = ix4 b h t s := funext fun a => Fin.ext (by
    match a with | ⟨0, _⟩ => rfl | ⟨1, _⟩ => rfl | ⟨2, _⟩ => rfl | ⟨3, _⟩ => rfl)
  have hr : ridx_main_v6 (ix4 b h t e) s = ix4 b h s e := funext fun a => Fin.ext (by
    match a with | ⟨0, _⟩ => rfl | ⟨1, _⟩ => rfl | ⟨2, _⟩ => rfl | ⟨3, _⟩ => rfl)
  rw [hl, hr, val_main_v5_apply, Ideal.mulf_def, score_apply, mask_apply]
  show (∑ d : Fin 64, q (ix4 b h t d) * k (ix4 b h s d)) * (if s.val ≤ t.val then (1 : EReal) else 0) * v (ix4 b h s e) = _
  by_cases hst : s.val ≤ t.val
  · rw [if_pos hst, if_pos hst, mul_one]
  · rw [if_neg hst, if_neg hst, mul_zero]

end Cert.RefCausal

end
-- ==== Proof.lean ====
/-
  Causal linear attention: a blocked kernel against the plain formula.

  For every batch b and head h, with queries q, keys k and values v (2048 rows of 64 features), both programs compute
      out[t, e] = Σ_s m(t, s) · v[s, e],     m(t, s) = Σ_d q[t, d] · k[s, d]  if s ≤ t,  and 0 otherwise.

  The reference forms all 2048 × 2048 scores, multiplies them by a lower-triangular matrix of ones, and contracts with
  the values. The kernel flattens batch and head into 64 heads, handles one head per grid point, and for each block of
  512 query rows computes only the scores against the key rows up to the end of that block, masks them by a select,
  and contracts with those value rows; its matrix operands are narrowed to bf16, which is the identity on extended
  reals. The two agree because x · 1 = x, x · 0 = 0 and 0 · y = 0 for every extended real, so a masked term is zero
  whichever way it is masked, and because the key rows the kernel leaves out of a query row's sum are all masked for
  that row, so the shorter sum equals the longer one. None of this needs the inputs to be finite.

  The frames of the two kernel programs are the generated ones; the reference's frame is its generated run. The ideal
  pass rewrote nothing, so there is nothing to preserve. The algebraic claim pairs the kernel's run
  (`Cert.KernelValue.run`) with the reference's (`Cert.RefCausal.ref_eq`) at one common function of the arguments,
  `Cert.Causal.causal4`.
-/
import proofs.«102459_j28656021799604_2_alg».proof.Defs
import proofs.«102459_j28656021799604_2_alg».proof.Proof.Gen.Kernel
import proofs.«102459_j28656021799604_2_alg».proof.Proof.Gen.Kernel.Skeleton
import proofs.«102459_j28656021799604_2_alg».proof.Proof.Gen.Kernel.Launch
import proofs.«102459_j28656021799604_2_alg».proof.Proof.Gen.Kernel.Points
import proofs.«102459_j28656021799604_2_alg».proof.Proof.Gen.Kernel.Frame
import proofs.«102459_j28656021799604_2_alg».proof.Proof.Gen.KernelIdeal
import proofs.«102459_j28656021799604_2_alg».proof.Proof.Gen.KernelIdeal.Skeleton
import proofs.«102459_j28656021799604_2_alg».proof.Proof.Gen.KernelIdeal.Launch
import proofs.«102459_j28656021799604_2_alg».proof.Proof.Gen.KernelIdeal.Points
import proofs.«102459_j28656021799604_2_alg».proof.Proof.Gen.KernelIdeal.Frame
import proofs.«102459_j28656021799604_2_alg».proof.Proof.Gen.ReferenceIdeal
import proofs.«102459_j28656021799604_2_alg».proof.Proof.Gen.ReferenceIdeal.Run
import proofs.«102459_j28656021799604_2_alg».proof.Proof.Gen.ReferenceIdeal.Read
import proofs.«102459_j28656021799604_2_alg».proof.Proof.Gen.Pre_finite_inputs
import proofs.«102459_j28656021799604_2_alg».proof.Proof.KernelValue
import proofs.«102459_j28656021799604_2_alg».proof.Proof.RefCausal
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The reference runs and keeps its arguments: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with causal linear attention of the arguments in their result buffers: the kernel by
    `Cert.KernelValue.run`, the reference by its run read one operation at a time (`Cert.RefCausal.ref_eq`), from
    memories that agree on the arguments. -/
theorem algebraic : Cert.algebraic_KernelIdeal_ReferenceIdeal := by
  intro m ρ m' ρ' _ hagree
  refine ⟨fun c => fun i => Cert.Causal.causal4
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (i 0) (i 1) (i 2) (i 3),
    Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.RefCausal.ref_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
